-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S8x2048x4096 .f32) (main_arg1 : FVec F S4096x4096 .f32) (main_arg2 : FVec F S4096 .f32) (main_arg3 : FVec F S4096x16 .f32) (main_arg4 : FVec F S16x4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S8x2048x4096 : Shape := ⟨3, ![8, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S16384x4096 : Shape := ⟨2, ![16384, 4096]⟩
abbrev S1x4096 : Shape := ⟨2, ![1, 4096]⟩
abbrev S512x4096 : Shape := ⟨2, ![512, 4096]⟩
abbrev S1024x4096 : Shape := ⟨2, ![1024, 4096]⟩
abbrev S16x1024 : Shape := ⟨2, ![16, 1024]⟩
abbrev S1x1024 : Shape := ⟨2, ![1, 1024]⟩
abbrev S512x1024 : Shape := ⟨2, ![512, 1024]⟩
abbrev S512x16 : Shape := ⟨2, ![512, 16]⟩

abbrev nBuf : Space → Nat
  | .hbm => 10
  | .vmem => 11
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S16384x4096, .f32⟩
  | .hbm, ⟨6, _⟩ => ⟨S4096x4096, .bf16⟩
  | .hbm, ⟨7, _⟩ => ⟨S1x4096, .f32⟩
  | .hbm, ⟨8, _⟩ => ⟨S16384x4096, .f32⟩
  | .hbm, ⟨9, _⟩ => ⟨S8x2048x4096, .f32⟩
  | .local _ .vmem, ⟨0, _⟩ => ⟨S512x4096, .f32⟩
  | .local _ .vmem, ⟨1, _⟩ => ⟨S512x4096, .f32⟩
  | .local _ .vmem, ⟨2, _⟩ => ⟨S1024x4096, .bf16⟩
  | .local _ .vmem, ⟨3, _⟩ => ⟨S1024x4096, .bf16⟩
  | .local _ .vmem, ⟨4, _⟩ => ⟨S4096x16, .f32⟩
  | .local _ .vmem, ⟨5, _⟩ => ⟨S16x1024, .f32⟩
  | .local _ .vmem, ⟨6, _⟩ => ⟨S16x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4096x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8x2048x4096_S16384x4096 : S8x2048x4096.ShapeCasts S16384x4096
  bitsLt_bf16_f32 : FTy.bits .bf16 < FTy.bits .f32
  shapeCasts_S4096_S1x4096 : S4096.ShapeCasts S1x4096
  shapeCasts_S16384x4096_S8x2048x4096 : S16384x4096.ShapeCasts S8x2048x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x16_S4096x16_0_0 : ∀ a, (![0, 0] : Fin 2 → Nat) a + S4096x16.size a ≤ S4096x16.size a
  h_S4096x16 : 0 < S4096x16.numel
  inb_S16x1024_S16x1024_0_0 : ∀ a, (![0, 0] : Fin 2 → Nat) a + S16x1024.size a ≤ S16x1024.size a
  h_S16x1024 : 0 < S16x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x4096_S1024x4096_S512x1024_1_1_0_0_n_n_wf : DotDims.WF S512x4096 S1024x4096 S512x1024 [1] [1] [0] [0] [] []
  dot_S512x4096_S4096x16_S512x16_1_0_0_1_n_n_wf : DotDims.WF S512x4096 S4096x16 S512x16 [1] [0] [0] [1] [] []
  dot_S512x16_S16x1024_S512x1024_1_0_0_1_n_n_wf : DotDims.WF S512x16 S16x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x16.size a ≤ S4096x16.size a
  hwx0_2 : ∀ i : grid0.Coords, EltTy.bits .f32 = 32 ∨ (Rect.block (s := S4096x16) S4096x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .f32 = 32 ∨ (Rect.block (s := S16x4096) S16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x4096.size a
  hwx0_5 : ∀ i : grid0.Coords, EltTy.bits .f32 = 32 ∨ (Rect.block (s := S16384x4096) S512x1024.size (cc0_transform_5 i) (hinb0_5 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf
def dot_S512x4096_S4096x16_S512x16_1_0_0_1_n_n : DotDims S512x4096 S4096x16 S512x16 where
  lhsContracting := [1]
  rhsContracting := [0]
  lhsNonContracting := [0]
  rhsNonContracting := [1]
  lhsBatch := []
  rhsBatch := []
  wf := dot_S512x4096_S4096x16_S512x16_1_0_0_1_n_n_wf
def dot_S512x16_S16x1024_S512x1024_1_0_0_1_n_n : DotDims S512x16 S16x1024 S512x1024 where
  lhsContracting := [1]
  rhsContracting := [0]
  lhsNonContracting := [0]
  rhsNonContracting := [1]
  lhsBatch := []
  rhsBatch := []
  wf := dot_S512x16_S16x1024_S512x1024_1_0_0_1_n_n_wf

abbrev win0_0 : Pipeline.Window sig grid0 :=
  Pipeline.Window.ofSpec (Memref.whole main_call0_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4096x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S1x1x4096 : Shape := ⟨3, ![1, 1, 4096]⟩
abbrev S8x2048x16 : Shape := ⟨3, ![8, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S8x2048x4096, .f32⟩
  | .hbm, ⟨6, _⟩ => ⟨S1x1x4096, .f32⟩
  | .hbm, ⟨7, _⟩ => ⟨S8x2048x4096, .f32⟩
  | .hbm, ⟨8, _⟩ => ⟨S8x2048x4096, .f32⟩
  | .hbm, ⟨9, _⟩ => ⟨S8x2048x16, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S_S8x2048x4096 : S_.BroadcastsInDim S8x2048x4096 (![] : Fin 0 → Fin S8x2048x4096.rank)
  dot_S8x2048x4096_S4096x4096_S8x2048x4096_2_1_01_0_n_n_wf : DotDims.WF S8x2048x4096 S4096x4096 S8x2048x4096 [2] [1] [0, 1] [0] [] []
  dot_S8x2048x4096_S4096x16_S8x2048x16_2_0_01_1_n_n_wf : DotDims.WF S8x2048x4096 S4096x16 S8x2048x16 [2] [0] [0, 1] [1] [] []
  dot_S8x2048x16_S16x4096_S8x2048x4096_2_0_01_1_n_n_wf : DotDims.WF S8x2048x16 S16x4096 S8x2048x4096 [2] [0] [0, 1] [1] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf
def dot_S8x2048x4096_S4096x16_S8x2048x16_2_0_01_1_n_n : DotDims S8x2048x4096 S4096x16 S8x2048x16 where
  lhsContracting := [2]
  rhsContracting := [0]
  lhsNonContracting := [0, 1]
  rhsNonContracting := [1]
  lhsBatch := []
  rhsBatch := []
  wf := dot_S8x2048x4096_S4096x16_S8x2048x16_2_0_01_1_n_n_wf
def dot_S8x2048x16_S16x4096_S8x2048x4096_2_0_01_1_n_n : DotDims S8x2048x16 S16x4096 S8x2048x4096 where
  lhsContracting := [2]
  rhsContracting := [0]
  lhsNonContracting := [0, 1]
  rhsNonContracting := [1]
  lhsBatch := []
  rhsBatch := []
  wf := dot_S8x2048x16_S16x4096_S8x2048x4096_2_0_01_1_n_n_wf

class Facts : Prop extends Facts₀ where

variable [Facts]
-- ==== Proof.HostSides.lean ====
/-
  The host operations around the region.

  Before the region the program flattens the input's two leading axes (8 x 2048 rows become 16384 rows), changes the
  format of the weights, and turns the bias into a 1 x 4096 row; A and B reach the region as they were launched. After
  the region one reshape splits the 16384 result rows into 8 x 2048 again. Each is read here as a function of the launch
  memory (or, for the last, of whatever the region left in its result array).
-/
import proofs.«170364_j14491219657132_2_alg».proof.Proof.Gen.KernelIdeal.Frame
import Idealize.ShloMosaic.Lib.StableHlo.Run
import Idealize.ShloMosaic.PureOps.Ideal.Laws

noncomputable section

open Idealize.ShloMosaic Idealize.ShloMosaic.TcCoe Idealize.SL.Sem

namespace Cert.KernelIdeal.Rows

open Cert.KernelIdeal Cert.KernelIdeal.Gen Idealize.ShloMosaic.StableHlo

variable (m : (ℓ : Loc nD τ sig) → Buf (Elt Ideal) ℓ)

/-- The region finds the input as a matrix of 16384 rows: the launch contents, flattened. -/
theorem entry_rows (c : Dev nD) : (V m c main_call0_v0 : S16384x4096.Idx → EReal)
    = shapeCast S16384x4096 (m ((c : Thread nD τ).loc main_arg0)) shapeCasts_S8x2048x4096_S16384x4096 := by
  show StableHlo.after hostOps0 (fun b => m (c, b)) (Proc.devRef .tc main_call0_v0) = _
  after_results
  rfl

/-- It finds the weights entry for entry as launched: the change of format is the identity on the extended reals. -/
theorem entry_weights (c : Dev nD) : (V m c main_call0_v1 : S4096x4096.Idx → EReal)
    = (m ((c : Thread nD τ).loc main_arg1) : S4096x4096.Idx → EReal) := by
  show StableHlo.after hostOps0 (fun b => m (c, b)) (Proc.devRef .tc main_call0_v1) = _
  after_results
  rfl

/-- It finds the bias as a 1 x 4096 row. -/
theorem entry_bias (c : Dev nD) : (V m c main_call0_v2 : S1x4096.Idx → EReal)
    = shapeCast S1x4096 (m ((c : Thread nD τ).loc main_arg2)) shapeCasts_S4096_S1x4096 := by
  show StableHlo.after hostOps0 (fun b => m (c, b)) (Proc.devRef .tc main_call0_v2) = _
  after_results
  rfl

/-- The one operation after the region: whatever the buffers hold then, the program's result is the region's result
    array with its 16384 rows split into 8 x 2048. -/
theorem tail_result (Wv : Valuation τ sig (Elt Ideal)) :
    (StableHlo.after hostOps1 Wv (Proc.devRef .tc main_v0) : S8x2048x4096.Idx → EReal)
      = shapeCast S8x2048x4096 (Wv (Proc.devRef .tc main_call0_v3) : S16384x4096.Idx → EReal) shapeCasts_S16384x4096_S8x2048x4096 := by
  after_results
  rfl

end Cert.KernelIdeal.Rows

end
-- ==== Proof.BlockReads.lean ====
/-
  The grid's blocks.

  The grid has 4 x 32 points; point (j, i) works on rows 512 i .. 512 i + 511 of the input matrix and on output
  features 1024 j .. 1024 j + 1023. Its six windows are: block i of 512 rows of the input; block j of 1024 rows of the
  weights; all of A; columns 1024 j .. of B; entries 1024 j .. of the bias row; and block (i, j) of the result. An
  element of a block sits in its array, on each axis, at the block's index times the block's size plus its own
  coordinate; the relations between the six index maps are decided once over the 128 points.
-/
import proofs.«170364_j14491219657132_2_alg».proof.Proof.Gen.KernelIdeal.Frame
import Idealize.ShloMosaic.Lib.Pipeline.Value
import Idealize.ShloMosaic.PureOps.Ideal.Laws

noncomputable section

open Idealize.ShloMosaic Idealize.ShloMosaic.TcCoe Idealize.SL.Sem

namespace Cert.KernelIdeal.Rows

open Cert.KernelIdeal Cert.KernelIdeal.Gen

variable (m : (ℓ : Loc nD τ sig) → Buf (Elt Ideal) ℓ)

theorem zero_offsets : (![0, 0] : Fin 2 → Nat) = fun _ => 0 := funext fun a => by fin_cases a <;> rfl

/-- The five input windows against the output window, at every point: the input's row block is the output's row block;
    the weights', B's and the bias's block along the features is the output's column block; A is whole; and the
    output's block indices stay in 32 x 4. -/
theorem index_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) ≤ 31 ∧ win0_5.index t (1 : Fin 2) ≤ 3 :=
  (by decide +kernel : ∀ t : Fin grid0.N, _)

/-- Every block of the 32 x 4 tiling of the result is some point's. -/
theorem index_onto : ∀ (q0 : Fin 32) (q1 : Fin 4), ∃ t : Fin cfg0.N, win0_5.index t = ![q0.val, q1.val] :=
  (by decide +kernel : ∀ (q0 : Fin 32) (q1 : Fin 4), ∃ t : Fin grid0.N, win0_5.index t = ![q0.val, q1.val])

/-- An element of the input's block at a point is the input matrix's element at the block's offsets plus its coordinates. -/
theorem rows_block_apply (c : Dev nD) (t : Fin cfg0.N) (y : S512x4096.Idx) (k : S16384x4096.Idx)
    (hk0 : (k 0).val = win0_0.index t (0 : Fin 2) * 512 + (y 0).val)
    (hk1 : (k 1).val = win0_0.index t (1 : Fin 2) * 4096 + (y 1).val) :
    (iblk m c 0 t : FVec Ideal S512x4096 .f32) y = (V m c main_call0_v0 : S16384x4096.Idx → EReal) k := by
  unfold iblk
  rw [View.read_apply]
  show V m c main_call0_v0 _ = V m c main_call0_v0 _
  refine congrArg (V m c main_call0_v0) (funext fun a => Fin.ext ?_)
  match a with
  | ⟨0, _⟩ => show win0_0.index t (0 : Fin 2) * 512 + 1 * (y 0).val = (k 0).val; omega
  | ⟨1, _⟩ => show win0_0.index t (1 : Fin 2) * 4096 + 1 * (y 1).val = (k 1).val; omega

/-- The same for the weights' block of 1024 rows, -/
theorem weights_block_apply (c : Dev nD) (t : Fin cfg0.N) (y : S1024x4096.Idx) (k : S4096x4096.Idx)
    (hk0 : (k 0).val = win0_1.index t (0 : Fin 2) * 1024 + (y 0).val)
    (hk1 : (k 1).val = win0_1.index t (1 : Fin 2) * 4096 + (y 1).val) :
    (iblk m c 1 t : FVec Ideal S1024x4096 .bf16) y = (V m c main_call0_v1 : S4096x4096.Idx → EReal) k := by
  unfold iblk
  rw [View.read_apply]
  show V m c main_call0_v1 _ = V m c main_call0_v1 _
  refine congrArg (V m c main_call0_v1) (funext fun a => Fin.ext ?_)
  match a with
  | ⟨0, _⟩ => show win0_1.index t (0 : Fin 2) * 1024 + 1 * (y 0).val = (k 0).val; omega
  | ⟨1, _⟩ => show win0_1.index t (1 : Fin 2) * 4096 + 1 * (y 1).val = (k 1).val; omega

/-- for A's one block, -/
theorem a_block_apply (c : Dev nD) (t : Fin cfg0.N) (y : S4096x16.Idx) (k : S4096x16.Idx)
    (hk0 : (k 0).val = win0_2.index t (0 : Fin 2) * 4096 + (y 0).val)
    (hk1 : (k 1).val = win0_2.index t (1 : Fin 2) * 16 + (y 1).val) :
    (iblk m c 2 t : FVec Ideal S4096x16 .f32) y = (V m c main_arg3 : S4096x16.Idx → EReal) k := by
  unfold iblk
  rw [View.read_apply]
  show V m c main_arg3 _ = V m c main_arg3 _
  refine congrArg (V m c main_arg3) (funext fun a => Fin.ext ?_)
  match a with
  | ⟨0, _⟩ => show win0_2.index t (0 : Fin 2) * 4096 + 1 * (y 0).val = (k 0).val; omega
  | ⟨1, _⟩ => show win0_2.index t (1 : Fin 2) * 16 + 1 * (y 1).val = (k 1).val; omega

/-- for B's block of 1024 columns, -/
theorem b_block_apply (c : Dev nD) (t : Fin cfg0.N) (y : S16x1024.Idx) (k : S16x4096.Idx)
    (hk0 : (k 0).val = win0_3.index t (0 : Fin 2) * 16 + (y 0).val)
    (hk1 : (k 1).val = win0_3.index t (1 : Fin 2) * 1024 + (y 1).val) :
    (iblk m c 3 t : FVec Ideal S16x1024 .f32) y = (V m c main_arg4 : S16x4096.Idx → EReal) k := by
  unfold iblk
  rw [View.read_apply]
  show V m c main_arg4 _ = V m c main_arg4 _
  refine congrArg (V m c main_arg4) (funext fun a => Fin.ext ?_)
  match a with
  | ⟨0, _⟩ => show win0_3.index t (0 : Fin 2) * 16 + 1 * (y 0).val = (k 0).val; omega
  | ⟨1, _⟩ => show win0_3.index t (1 : Fin 2) * 1024 + 1 * (y 1).val = (k 1).val; omega

/-- and for the bias row's block of 1024 entries. -/
theorem bias_block_apply (c : Dev nD) (t : Fin cfg0.N) (y : S1x1024.Idx) (k : S1x4096.Idx)
    (hk0 : (k 0).val = win0_4.index t (0 : Fin 2) * 1 + (y 0).val)
    (hk1 : (k 1).val = win0_4.index t (1 : Fin 2) * 1024 + (y 1).val) :
    (iblk m c 4 t : FVec Ideal S1x1024 .f32) y = (V m c main_call0_v2 : S1x4096.Idx → EReal) k := by
  unfold iblk
  rw [View.read_apply]
  show V m c main_call0_v2 _ = V m c main_call0_v2 _
  refine congrArg (V m c main_call0_v2) (funext fun a => Fin.ext ?_)
  match a with
  | ⟨0, _⟩ => show win0_4.index t (0 : Fin 2) * 1 + 1 * (y 0).val = (k 0).val; omega
  | ⟨1, _⟩ => show win0_4.index t (1 : Fin 2) * 1024 + 1 * (y 1).val = (k 1).val; omega

end Cert.KernelIdeal.Rows

end
-- ==== Proof.LoraSpec.lean ====
/-
  A linear layer with a low-rank correction, as one function of its five arrays.

  For an input x, a weight matrix W (one row per output feature), a bias b, and two thin matrices A (4096 x 16) and
  B (16 x 4096), the layer's output at a row of x and an output feature o is

      ((sum over k of x[k] * W[o, k]) + b[o])  +  alpha * (sum over r < 16 of (sum over k of x[k] * A[k, r]) * B[r, o])

  on the extended reals, in exactly this grouping: the dense product first, the bias added to it, and the scaled
  low-rank term added last. `alpha` is the value of the single-precision word of 16; the same word stands on both sides
  of every equation below, so it is never evaluated. The entry depends on the input only through ONE row of x, on W only
  through row o, on B only through column o: `entry` states it over those three pieces, and the two layouts of the
  input met here — a batch of 8 sequences of 2048 rows, and the same 16384 rows as one matrix with the bias as a
  1 x 4096 row — are `layer` and `layerRows`. Nothing here needs an entry to be finite: the two layouts are related by
  renaming indices only.
-/
import Idealize.ShloMosaic.PureOps.Ideal.Laws
import Idealize.ShloMosaic.Lib.ValueIdx

noncomputable section

namespace LoraSpec

open Idealize.ShloMosaic Idealize.ShloMosaic.ValueIdx

/-- The scale of the low-rank term: the single-precision word of 16 as an extended real. -/
def alpha : EReal := Ideal.ofBits .f32 0x41800000#32

/-- One output entry, from a row of the input, the weight row of the output feature, that feature's bias, the matrix A
    and the column of B of that feature. -/
def entry (xrow wrow : Fin 4096 → EReal) (bias : EReal) (A : (⟨2, ![4096, 16]⟩ : Shape).Idx → EReal)
    (bcol : Fin 16 → EReal) : EReal :=
  ((∑ k : Fin 4096, xrow k * wrow k) + bias)
    + alpha * ∑ r : Fin 16, (∑ k : Fin 4096, xrow k * A (ix2 k r)) * bcol r

/-- The layer on a batch of 8 sequences of 2048 rows: entry (s, t, o) uses row t of sequence s. -/
def layer (x : (⟨3, ![8, 2048, 4096]⟩ : Shape).Idx → EReal) (W : (⟨2, ![4096, 4096]⟩ : Shape).Idx → EReal)
    (b : (⟨1, ![4096]⟩ : Shape).Idx → EReal) (A : (⟨2, ![4096, 16]⟩ : Shape).Idx → EReal)
    (B : (⟨2, ![16, 4096]⟩ : Shape).Idx → EReal) : (⟨3, ![8, 2048, 4096]⟩ : Shape).Idx → EReal :=
  fun i => entry (fun k => x (ix3 (i 0) (i 1) k)) (fun k => W (ix2 (i 2) k)) (b (ix1 (i 2))) A (fun r => B (ix2 r (i 2)))

/-- The layer on the 16384 rows as one matrix, the bias a 1 x 4096 row: entry (m, o) uses row m. -/
def layerRows (x : (⟨2, ![16384, 4096]⟩ : Shape).Idx → EReal) (W : (⟨2, ![4096, 4096]⟩ : Shape).Idx → EReal)
    (b : (⟨2, ![1, 4096]⟩ : Shape).Idx → EReal) (A : (⟨2, ![4096, 16]⟩ : Shape).Idx → EReal)
    (B : (⟨2, ![16, 4096]⟩ : Shape).Idx → EReal) : (⟨2, ![16384, 4096]⟩ : Shape).Idx → EReal :=
  fun j => entry (fun k => x (ix2 (j 0) k)) (fun k => W (ix2 (j 1) k)) (b (ix2 0 (j 1))) A (fun r => B (ix2 r (j 1)))

/-- The two layouts agree entry by entry: when the matrix's row m is row t of sequence s (m = s * 2048 + t), the weights
    read the same at row o, and the bias row's entry o is the bias's entry o, entry (m, o) of `layerRows` is entry
    (s, t, o) of `layer`. -/
theorem layerRows_eq_layer (x : (⟨3, ![8, 2048, 4096]⟩ : Shape).Idx → EReal) (x2 : (⟨2, ![16384, 4096]⟩ : Shape).Idx → EReal)
    (W W2 : (⟨2, ![4096, 4096]⟩ : Shape).Idx → EReal) (b : (⟨1, ![4096]⟩ : Shape).Idx → EReal)
    (b2 : (⟨2, ![1, 4096]⟩ : Shape).Idx → EReal) (A : (⟨2, ![4096, 16]⟩ : Shape).Idx → EReal)
    (B : (⟨2, ![16, 4096]⟩ : Shape).Idx → EReal) (s : Fin 8) (t : Fin 2048) (o : Fin 4096) (r : Fin 16384)
    (hx : ∀ k : Fin 4096, x2 (ix2 r k) = x (ix3 s t k)) (hW : ∀ k : Fin 4096, W2 (ix2 o k) = W (ix2 o k))
    (hb : b2 (ix2 0 o) = b (ix1 o)) :
    layerRows x2 W2 b2 A B (ix2 r o) = layer x W b A B (ix3 s t o) := by
  show entry (fun k => x2 (ix2 r k)) (fun k => W2 (ix2 o k)) (b2 (ix2 0 o)) A (fun q => B (ix2 q o))
    = entry (fun k => x (ix3 s t k)) (fun k => W (ix2 o k)) (b (ix1 o)) A (fun q => B (ix2 q o))
  rw [hb, funext hx, funext hW]

end LoraSpec

end
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.LibDotRows.lean ====
/-
  A matrix times the transpose of a matrix, read at an entry, on the extended reals.

  For the dimension numbers "rows x contraction times columns x contraction" (`DotDims.transposedRhs M K N`: the left
  operand [M, K] and the right operand [N, K] both contracted on their second axis, no batch axis: the product of the
  left operand with the transpose of the right one, as a linear layer `x @ W.T` writes it), both a `tpu.matmul` into
  the zero accumulator and the host's `dot_general` are, at an output entry (r, c), the plain sum

      sum over k < K of  l (r, k) * w (c, k)

  of products of extended reals: no rounding, no chunking and no accumulator are left. Nothing is assumed finite: the
  statement is about one and the same finite sum of products, only re-indexed from the contraction's own index type
  to `Fin K`. Generic in the three extents, so one statement serves a block of rows against a block of rows and the
  whole matrices. The twin of the plain product (left [M, K], right [K, N]) for a transposed right operand.
-/
import Idealize.ShloMosaic.PureOps.Ideal.Laws
import Idealize.ShloMosaic.Lib.ValueIdx

noncomputable section

namespace DotRows

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ =>
    show ((DotDims.transposedRhs M K N).lhsIdx j _ 0).val = (j 0).val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ =>
    exact ((DotDims.transposedRhs M K N).lhsIdx_val_of_single rfl j _).trans hk

/-- The right operand's index at output entry `j` and contraction position `k` is (column of `j`, `k`): the right
    operand is read along its own row, the row the output's column names. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ =>
    show ((DotDims.transposedRhs M K N).rhsIdx j _ 0).val = (j 1).val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ =>
    exact ((DotDims.transposedRhs M K N).rhsIdx_val_of_single rfl j _).trans hk

/-- The contraction's sum, over its own index type, is the sum over `k < K` of `l (row, k) * w (column, k)`. -/
theorem sum_eq (l : (⟨2, ![M, K]⟩ : Shape).Idx → EReal) (w : (⟨2, ![N, K]⟩ : Shape).Idx → EReal)
    (j : (⟨2, ![M, N]⟩ : Shape).Idx) :
    ∑ q : (DotDims.transposedRhs M K N).contr.Idx,
        l ((DotDims.transposedRhs M K N).lhsIdx j q) * w ((DotDims.transposedRhs M K N).rhsIdx j q)
      = ∑ k : Fin K, l (ix2 (j 0) k) * w (ix2 (j 1) k) := by
  rw [← Equiv.sum_comp (contrEquiv1 (DotDims.transposedRhs M K N) K rfl rfl).symm]
  refine Finset.sum_congr rfl fun k _ => ?_
  rw [lhsIdx_eq, rhsIdx_eq]
  rfl

/-- A `tpu.matmul` into the zero accumulator, at an entry: the plain sum of products along the two rows. -/
theorem matmul_zero_apply {φ₁ φ₂ : FTy} (prec : Option ContractPrecision)
    (l : FVec Ideal ⟨2, ![M, K]⟩ φ₁) (w : FVec Ideal ⟨2, ![N, K]⟩ φ₂) (j : (⟨2, ![M, N]⟩ : Shape).Idx) :
    FloatOps.matmul (DotDims.transposedRhs M K N) prec l w (constant ⟨2, ![M, N]⟩ .f32 0x00000000#32) j
      = ∑ k : Fin K, (l (ix2 (j 0) k) : EReal) * w (ix2 (j 1) k) :=
  (Ideal.matmul_constant_zero_apply (DotDims.transposedRhs M K N) prec l w j).trans (sum_eq M K N l w j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (w : FVec Ideal ⟨2, ![N, K]⟩ φ₂) (j : (⟨2, ![M, N]⟩ : Shape).Idx) :
    FloatOps.dotGeneral (DotDims.transposedRhs M K N) prec sched l w j
      = ∑ k : Fin K, (l (ix2 (j 0) k) : EReal) * w (ix2 (j 1) k) :=
  (Ideal.dotGeneral_apply (DotDims.transposedRhs M K N) prec sched l w j).trans (sum_eq M K N l w j)

end DotRows

end
-- ==== Proof.BlockEntry.lean ====
/-
  What one grid point stores, entry by entry.

  The body loads a block x of 512 rows of the input, a block w of 1024 rows of the weights (one row per output feature of
  the block), the whole of A, the 1024 columns of B that belong to those features, and their 1024 bias entries as a
  1 x 1024 row, and stores

      (x w^T + bias row over every row) + 16 * ((x A) B).

  The three products go into the zero accumulator, so each is a plain sum of products; the change of format of x and w on
  the way into the first product is the identity on the extended reals; the casts of a block to its own shape are the
  identity. Hence the stored block at (p, q) is `LoraSpec.entry` of row p of x, row q of w, bias entry q, A, and column q
  of the block of B — the same sums in the same grouping as the layer's.
-/
import proofs.«170364_j14491219657132_2_alg».proof.Proof.Gen.KernelIdeal.Skeleton
import proofs.«170364_j14491219657132_2_alg».proof.Proof.LoraSpec
import proofs.«170364_j14491219657132_2_alg».proof.Proof.LibPlainDot
import proofs.«170364_j14491219657132_2_alg».proof.Proof.LibDotRows
import Idealize.ShloMosaic.Lib.Pipeline.Value
import Idealize.ShloMosaic.Lib.ValueLayout

noncomputable section

namespace Cert.KernelIdeal.Block

open Cert.KernelIdeal Cert.KernelIdeal.Gen Idealize.ShloMosaic Idealize.ShloMosaic.ValueIdx

/-- The dense product of the block: rows of x against rows of w. -/
theorem dense_apply (x : FVec Ideal S512x4096 .bf16) (w : FVec Ideal S1024x4096 .bf16) (p : Fin 512) (q : Fin 1024) :
    matmul dot_S512x4096_S1024x4096_S512x1024_1_1_0_0_n_n none x w (constant (F := Ideal) S512x1024 .f32 0x00000000#32) (ix2 p q)
      = ∑ k : Fin 4096, x (ix2 p k) * w (ix2 q k) :=
  DotRows.matmul_zero_apply 512 4096 1024 none x w (ix2 p q)

/-- The low-rank product of the block: (x A) B, the inner product first. -/
theorem lowrank_apply (x : FVec Ideal S512x4096 .f32) (a : FVec Ideal S4096x16 .f32) (b : FVec Ideal S16x1024 .f32)
    (p : Fin 512) (q : Fin 1024) :
    matmul dot_S512x16_S16x1024_S512x1024_1_0_0_1_n_n none
        (matmul dot_S512x4096_S4096x16_S512x16_1_0_0_1_n_n none x a (constant (F := Ideal) S512x16 .f32 0x00000000#32)) b
        (constant (F := Ideal) S512x1024 .f32 0x00000000#32) (ix2 p q)
      = ∑ r : Fin 16, (∑ k : Fin 4096, x (ix2 p k) * a (ix2 k r)) * b (ix2 r q) := by
  refine (PlainDot.matmul_zero_apply 512 16 1024 none _ b (ix2 p q)).trans ?_
  refine Finset.sum_congr rfl fun r _ => ?_
  exact congrArg (· * b (ix2 r q)) (PlainDot.matmul_zero_apply 512 4096 16 none x a (ix2 p r))

/-- The stored block at (p, q) is the layer's entry of the block's loads. -/
theorem payload_apply (v0 : FVec Ideal S512x4096 .f32) (v3 : FVec Ideal S1024x4096 .bf16) (v5 : FVec Ideal S4096x16 .f32)
    (v6 : FVec Ideal S16x1024 .f32) (v7 : FVec Ideal S1x1024 .f32) (p : Fin 512) (q : Fin 1024) :
    k0_pay1 (F := Ideal) v0 v3 v5 v6 v7 (ix2 p q)
      = LoraSpec.entry (fun k => v0 (ix2 p k)) (fun k => v3 (ix2 q k)) (v7 (ix2 (0 : Fin 1) q)) v5 (fun r => v6 (ix2 r q)) := by
  unfold k0_pay1
  simp only [shapeCast_self]
  rw [addf_apply, addf_apply, mulf_apply, broadcast_apply, dense_apply, broadcastTo_1b_ab_apply, lowrank_apply]
  simp only [truncf_apply]
  rfl

/-- When each load is the piece of the whole arrays that entry (r, o) of the rows' layer depends on — row p of the block
    of x is row r of the input matrix, row q of the block of w is weight row o, the block of A is A, column q of the block
    of B is column o of B, and entry q of the bias block is entry o of the bias row — the stored block at (p, q) is
    `LoraSpec.layerRows` of the whole arrays at (r, o). -/
theorem stored_entry_eq (X : (⟨2, ![16384, 4096]⟩ : Shape).Idx → EReal) (Wt : (⟨2, ![4096, 4096]⟩ : Shape).Idx → EReal)
    (b2 : (⟨2, ![1, 4096]⟩ : Shape).Idx → EReal) (A : (⟨2, ![4096, 16]⟩ : Shape).Idx → EReal) (B : (⟨2, ![16, 4096]⟩ : Shape).Idx → EReal)
    (v0 : FVec Ideal S512x4096 .f32) (v3 : FVec Ideal S1024x4096 .bf16) (v5 : FVec Ideal S4096x16 .f32)
    (v6 : FVec Ideal S16x1024 .f32) (v7 : FVec Ideal S1x1024 .f32)
    (y : S512x1024.Idx) (i : S16384x4096.Idx)
    (h0 : ∀ k : Fin 4096, v0 (ix2 (y 0) k) = X (ix2 (i 0) k))
    (h1 : ∀ k : Fin 4096, v3 (ix2 (y 1) k) = Wt (ix2 (i 1) k))
    (h2 : v5 = A)
    (h3 : ∀ s : Fin 16, v6 (ix2 s (y 1)) = B (ix2 s (i 1)))
    (h4 : v7 (ix2 (0 : Fin 1) (y 1)) = b2 (ix2 (0 : Fin 1) (i 1))) :
    k0_pay1 (F := Ideal) v0 v3 v5 v6 v7 y = LoraSpec.layerRows X Wt b2 A B i := by
  obtain ⟨p, q, rfl⟩ : ∃ (p : Fin 512) (q : Fin 1024), y = ix2 p q := ⟨y 0, y 1, eq_ix2 y⟩
  obtain ⟨r, o, rfl⟩ : ∃ (r : Fin 16384) (o : Fin 4096), i = ix2 r o := ⟨i 0, i 1, eq_ix2 i⟩
  subst h2
  rw [payload_apply]
  show LoraSpec.entry _ _ _ _ _ = LoraSpec.entry (fun k => X (ix2 r k)) (fun k => Wt (ix2 o k)) (b2 (ix2 (0 : Fin 1) o)) v5 (fun s => B (ix2 s o))
  rw [show (fun k => v0 (ix2 p k)) = fun k => X (ix2 r k) from funext h0,
    show (fun k => v3 (ix2 q k)) = fun k => Wt (ix2 o k) from funext h1,
    show (fun s => v6 (ix2 s q)) = fun s => B (ix2 s o) from funext h3,
    show v7 (ix2 (0 : Fin 1) q) = b2 (ix2 (0 : Fin 1) o) from h4]

end Cert.KernelIdeal.Block

end
-- ==== Proof.LibFlattenRows.lean ====
/-
  An array of shape [a, b, c] and the same entries as a matrix of a·b rows: entry (i, j, k) of the one is entry
  (i·b + j, k) of the other, in both directions of the reshape.
-/
import Idealize.ShloMosaic.Lib.Pipeline.Value
import Idealize.ShloMosaic.Lib.ValueIdx

namespace Cert.FlattenRows

open Idealize.ShloMosaic Idealize.ShloMosaic.ValueIdx

variable {α : Type}

/-- Flattening the two leading axes: row `i·b + j` of the matrix is row `j` of slab `i`. -/
theorem flatten_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- Splitting the rows again: row `j` of slab `i` is row `i·b + j` of the matrix. -/
theorem unflatten_apply {a b c n : ℕ} (y : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ y h (ix3 i j k) = y (ix2 r k) :=
  shapeCast_apply y h _ _ (by
    rw [Shape.rowMajor_val_three, Shape.rowMajor_val_two]
    show r.val * c + k.val = (i.val * b + j.val) * c + k.val
    rw [hr])

end Cert.FlattenRows
-- ==== Proof.RowsLayout.lean ====
/-
  The rows' layer, reshaped back, is the layer.

  The kernel's program flattens the batch of 8 sequences of 2048 rows into one matrix of 16384 rows, changes the format
  of the weights (the identity on the extended reals), turns the bias into a 1 x 4096 row, computes the layer on the rows,
  and splits the 16384 result rows into 8 x 2048 again. Row s * 2048 + t of the matrix is row t of sequence s in both
  reshapes, so the result at (s, t, o) is the layer's entry (s, t, o).
-/
import proofs.«170364_j14491219657132_2_alg».proof.Proof.LoraSpec
import proofs.«170364_j14491219657132_2_alg».proof.Proof.LibFlattenRows
import Idealize.ShloMosaic.Lib.ValueLayout

noncomputable section

namespace LoraSpec

open Idealize.ShloMosaic Idealize.ShloMosaic.ValueIdx

/-- Flatten, compute on rows, split the rows again: the layer. -/
theorem unflatten_layerRows (x : (⟨3, ![8, 2048, 4096]⟩ : Shape).Idx → EReal) (W W2 : (⟨2, ![4096, 4096]⟩ : Shape).Idx → EReal)
    (b : (⟨1, ![4096]⟩ : Shape).Idx → EReal) (A : (⟨2, ![4096, 16]⟩ : Shape).Idx → EReal) (B : (⟨2, ![16, 4096]⟩ : Shape).Idx → EReal)
    (hflat : (⟨3, ![8, 2048, 4096]⟩ : Shape).ShapeCasts ⟨2, ![16384, 4096]⟩)
    (hrow : (⟨1, ![4096]⟩ : Shape).ShapeCasts ⟨2, ![1, 4096]⟩)
    (hsplit : (⟨2, ![16384, 4096]⟩ : Shape).ShapeCasts ⟨3, ![8, 2048, 4096]⟩)
    (hW : ∀ j, W2 j = W j) :
    shapeCast ⟨3, ![8, 2048, 4096]⟩
        (layerRows (shapeCast ⟨2, ![16384, 4096]⟩ x hflat) W2 (shapeCast ⟨2, ![1, 4096]⟩ b hrow) A B) hsplit
      = layer x W b A B := by
  funext i
  obtain ⟨s, t, o, rfl⟩ : ∃ (s : Fin 8) (t : Fin 2048) (o : Fin 4096), i = ix3 s t o := ⟨i 0, i 1, i 2, eq_ix3 i⟩
  have hr : s.val * 2048 + t.val < 16384 := by have := s.isLt; have := t.isLt; omega
  rw [Cert.FlattenRows.unflatten_apply _ hsplit s t o ⟨s.val * 2048 + t.val, hr⟩ rfl]
  exact layerRows_eq_layer x _ W W2 b _ A B s t o _
    (fun k => Cert.FlattenRows.flatten_apply x hflat s t k ⟨s.val * 2048 + t.val, hr⟩ rfl)
    (fun k => hW _) (shapeCast_a_1a_apply b hrow 0 o)

end LoraSpec

end
-- ==== Proof.KernelRows.lean ====
/-
  The kernel's program computes the layer.

  What point t writes back is block t of ONE function of the arrays the region finds: `LoraSpec.layerRows` of the
  flattened input, the weights, the bias row, A and B. For, at entry (p, q) of the block, the body's loads are exactly the
  pieces of those arrays that entry (512 i + p, 1024 j + q) of the rows' layer depends on. The 32 x 4 blocks tile the
  16384 x 4096 result (entry (r, o) lies in block (r / 512, o / 1024)), so after the run the result array IS that
  function; the program's last operation splits its rows into 8 x 2048, and flattened-then-split is the layer itself.
-/
import proofs.«170364_j14491219657132_2_alg».proof.Proof.HostSides
import proofs.«170364_j14491219657132_2_alg».proof.Proof.BlockReads
import proofs.«170364_j14491219657132_2_alg».proof.Proof.BlockEntry
import proofs.«170364_j14491219657132_2_alg».proof.Proof.RowsLayout

noncomputable section

open Idealize.ShloMosaic Idealize.ShloMosaic.TcCoe Idealize.SL.Sem
open Idealize.ShloMosaic.Pipeline (Dat)

namespace Cert.KernelIdeal.Rows

open Cert.KernelIdeal Cert.KernelIdeal.Gen Idealize.ShloMosaic.ValueIdx

variable (m : (ℓ : Loc nD τ sig) → Buf (Elt Ideal) ℓ) (ρ : Dev nD → PrngReg)

/-- The rows' layer of the arrays as the region finds them. -/
abbrev rowsResult (c : Dev nD) : S16384x4096.Idx → EReal :=
  LoraSpec.layerRows (V m c main_call0_v0) (V m c main_call0_v1) (V m c main_call0_v2) (V m c main_arg3) (V m c main_arg4)

/-- WHAT POINT t WRITES BACK is block t of the rows' layer. -/
theorem flushed_eq (c : Dev nD) (t : Fin cfg0.N) :
    (dats m 0 c).flushed 5 t = ((cfg0.win 5).blk t).view.read (Elt Ideal) (rowsResult m c) := by
  show (cfg0.win 5).cut (grid0.coords t) ((dats m 0 c).after 5 t) = _
  rw [after0_5]
  unfold out0_5
  rw [View.canon_unit_zero zero_offsets]
  simp only [View.ld_unit_zero (S := S512x4096) zero_offsets, View.ld_unit_zero (S := S1024x4096) zero_offsets,
    View.ld_unit_zero (S := S4096x16) zero_offsets, View.ld_unit_zero (S := S16x1024) zero_offsets,
    View.ld_unit_zero (S := S1x1024) zero_offsets]
  obtain ⟨e00, e01, e10, e11, e20, e21, e30, e31, e40, e41, -, -⟩ := index_facts t
  refine funext fun y => ?_
  show k0_pay1 (F := Ideal) (iblk m c 0 t) (iblk m c 1 t) (iblk m c 2 t) (iblk m c 3 t) (iblk m c 4 t) y
    = rowsResult m c (((cfg0.win 5).blk t).view.emb y)
  have hr : ((((cfg0.win 5).blk t).view.emb y) 0).val = win0_5.index t (0 : Fin 2) * 512 + 1 * (y 0).val := rfl
  have ho : ((((cfg0.win 5).blk t).view.emb y) 1).val = win0_5.index t (1 : Fin 2) * 1024 + 1 * (y 1).val := rfl
  refine Block.stored_entry_eq (V m c main_call0_v0) (V m c main_call0_v1) (V m c main_call0_v2) (V m c main_arg3) (V m c main_arg4)
    (iblk m c 0 t) (iblk m c 1 t) (iblk m c 2 t) (iblk m c 3 t) (iblk m c 4 t) y (((cfg0.win 5).blk t).view.emb y) ?_ ?_ ?_ ?_ ?_
  · intro k
    refine rows_block_apply m c t _ _ ?_ ?_
    · show ((((cfg0.win 5).blk t).view.emb y) 0).val = win0_0.index t (0 : Fin 2) * 512 + (y 0).val
      omega
    · show k.val = win0_0.index t (1 : Fin 2) * 4096 + k.val
      omega
  · intro k
    refine weights_block_apply m c t _ _ ?_ ?_
    · show ((((cfg0.win 5).blk t).view.emb y) 1).val = win0_1.index t (0 : Fin 2) * 1024 + (y 1).val
      omega
    · show k.val = win0_1.index t (1 : Fin 2) * 4096 + k.val
      omega
  · funext x
    refine a_block_apply m c t x x ?_ ?_
    · omega
    · omega
  · intro s
    refine b_block_apply m c t _ _ ?_ ?_
    · show s.val = win0_3.index t (0 : Fin 2) * 16 + s.val
      omega
    · show ((((cfg0.win 5).blk t).view.emb y) 1).val = win0_3.index t (1 : Fin 2) * 1024 + (y 1).val
      omega
  · refine bias_block_apply m c t _ _ ?_ ?_
    · show (0 : Nat) = win0_4.index t (0 : Fin 2) * 1 + 0
      omega
    · show ((((cfg0.win 5).blk t).view.emb y) 1).val = win0_4.index t (1 : Fin 2) * 1024 + (y 1).val
      omega

/-- An index of the result array is in point t's block iff each coordinate is in the block's range on its axis. -/
theorem mem_block (t : Fin cfg0.N) (i : S16384x4096.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_call0_v3).slice (win0_5.rect t)).set ↔ _
  rw [View.set_slice_whole, Rect.mem_set_unit]
  exact Iff.rfl

/-- The blocks tile the result: entry (r, o) lies in the block of the point with block indices (r / 512, o / 1024). -/
theorem covered (i : S16384x4096.Idx) :
    ∃ t : Fin cfg0.N, (cfg0.win 5).flush t = true ∧ i ∈ ((cfg0.win 5).blk t).view.set := by
  have hi0 : (i 0).val < 16384 := (i 0).isLt
  have hi1 : (i 1).val < 4096 := (i 1).isLt
  obtain ⟨t, ht⟩ := index_onto ⟨(i 0).val / 512, by omega⟩ ⟨(i 1).val / 1024, by omega⟩
  have q0 : win0_5.index t (0 : Fin 2) = (i 0).val / 512 := congrFun ht 0
  have q1 : win0_5.index t (1 : Fin 2) = (i 1).val / 1024 := congrFun ht 1
  refine ⟨t, flush0_5 t, ?_⟩
  rw [mem_block]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 1024 ≤ (i 1).val ∧ (i 1).val < win0_5.index t (1 : Fin 2) * 1024 + 1024
    omega

/-- THE RESULT ARRAY after the run is the rows' layer. -/
theorem final (c : Dev nD) : (dats m 0 c).arrAt 5 cfg0.N = rowsResult m c :=
  (dats m 0 c).arrAt_eq_of_cover 5 (rowsResult m c) (fun t _ => flushed_eq m c t) covered

/-- THE PROGRAM'S RESULT: the region's result array with its rows split again — the layer of the launch contents. -/
theorem result_eq (c : Dev nD) :
    Pipeline.afterTail₀ cfgs (dats m) 0 (V0 m) [hostOps1] c main_v0
      = LoraSpec.layer (m ((c : Thread nD τ).loc main_arg0)) (m ((c : Thread nD τ).loc main_arg1))
          (m ((c : Thread nD τ).loc main_arg2)) (m ((c : Thread nD τ).loc main_arg3)) (m ((c : Thread nD τ).loc main_arg4)) := by
  unfold Pipeline.afterTail₀
  refine (tail_result _).trans ?_
  refine (congrArg (fun X : S16384x4096.Idx → EReal => shapeCast S8x2048x4096 X shapeCasts_S16384x4096_S8x2048x4096)
    ((Pipeline.withArrays_arr spec0 launch0.win.arr_inj c _ _ 5).trans (final m c))).trans ?_
  show shapeCast S8x2048x4096 (LoraSpec.layerRows (V m c main_call0_v0) (V m c main_call0_v1) (V m c main_call0_v2)
    (V m c main_arg3) (V m c main_arg4)) shapeCasts_S16384x4096_S8x2048x4096 = _
  rw [entry_rows, entry_bias, V_main_arg3, V_main_arg4]
  exact LoraSpec.unflatten_layerRows _ _ _ _ _ _ _ _ _ (fun j => congrFun (entry_weights m c) j)

/-- The run, read: the result at the layer of the arguments, the arguments unchanged. -/
theorem run : θ_run defs (onTc (τ := τ) (main (F := Ideal))) ⟨m, fun _ => 0, ρ⟩ fun r => ∀ c : Dev nD,
      r.2.mem ((c.tc : Thread nD τ).loc main_v0)
        = LoraSpec.layer (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.Rows

end
-- ==== Proof.RefIsLayer.lean ====
/-
  The reference computes the layer.

  Read one operation at a time, the reference's result at index (s, t, o) is: the dense product of row t of sequence s
  with weight row o; plus the bias entry o, which two broadcasts carry from a vector to every row; plus the word of 16,
  broadcast, times the product over the 16 middle positions of (row times A) with column o of B. That is `LoraSpec.layer`
  at (s, t, o) term for term — the same sums in the same grouping — once the index each operation reads its operands at
  is named by its coordinates.
-/
import proofs.«170364_j14491219657132_2_alg».proof.Proof.Gen.ReferenceIdeal.Read
import proofs.«170364_j14491219657132_2_alg».proof.Proof.LoraSpec

noncomputable section

namespace Cert.ReferenceIdeal.Layer

open Cert.ReferenceIdeal Cert.ReferenceIdeal.Read Idealize.ShloMosaic Idealize.ShloMosaic.ValueIdx

/-- The dense product reads the input at (s, t, k): -/
theorem lidx0 (i : S8x2048x4096.Idx) (k : Fin 4096) : lidx_main_v0 i k = ix3 (i 0) (i 1) k :=
  funext fun a => by match a with | ⟨0, _⟩ => rfl | ⟨1, _⟩ => rfl | ⟨2, _⟩ => rfl
/-- and the weights at (o, k): row o of W. -/
theorem ridx0 (i : S8x2048x4096.Idx) (k : Fin 4096) : ridx_main_v0 i k = ix2 (i 2) k :=
  funext fun a => by match a with | ⟨0, _⟩ => rfl | ⟨1, _⟩ => rfl
/-- The two broadcasts of the bias read it at o. -/
theorem bidx (i : S8x2048x4096.Idx) : idx_main_v1 (idx_main_v2 i) = ix1 (i 2) :=
  funext fun a => by match a with | ⟨0, _⟩ => rfl
/-- The product with A, read where the second product asks for it, reads the input at (s, t, k) again: -/
theorem lidx4 (i : S8x2048x4096.Idx) (r : Fin 16) (k : Fin 4096) : lidx_main_v4 (lidx_main_v5 i r) k = ix3 (i 0) (i 1) k :=
  funext fun a => by match a with | ⟨0, _⟩ => rfl | ⟨1, _⟩ => rfl | ⟨2, _⟩ => rfl
/-- and A at (k, r). -/
theorem ridx4 (i : S8x2048x4096.Idx) (r : Fin 16) (k : Fin 4096) : ridx_main_v4 (lidx_main_v5 i r) k = ix2 k r :=
  funext fun a => by match a with | ⟨0, _⟩ => rfl | ⟨1, _⟩ => rfl
/-- The second product reads B at (r, o): column o of B. -/
theorem ridx5 (i : S8x2048x4096.Idx) (r : Fin 16) : ridx_main_v5 i r = ix2 r (i 2) :=
  funext fun a => by match a with | ⟨0, _⟩ => rfl | ⟨1, _⟩ => rfl

/-- The reference's result, as its stages compose it, is the layer of its five arguments. -/
theorem val_eq_layer (x0 : (⟨S8x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x16, .f32⟩ : BufTy).Contents (Elt Ideal))
    (x4 : (⟨S16x4096, .f32⟩ : BufTy).Contents (Elt Ideal)) :
    val_main_v8 (F := Ideal) x0 x1 x2 x3 x4 = LoraSpec.layer x0 x1 x2 x3 x4 := by
  funext i
  rw [val_main_v8_apply, val_main_v3_apply, val_main_v0_apply, val_main_v2_apply, val_main_v1_apply, val_main_v7_apply,
    val_main_v6_apply, val_main_cst_apply, val_main_v5_apply]
  simp only [val_main_v4_apply, lidx0, ridx0, bidx, lidx4, ridx4, ridx5, Ideal.addf_def, Ideal.mulf_def, Ideal.ofBits_def]
  rfl

end Cert.ReferenceIdeal.Layer

end
-- ==== Proof.lean ====
/-
  A linear layer with a low-rank correction: out = x W^T + b + 16 (x A) B, for x of shape 8 x 2048 x 4096, W 4096 x 4096,
  b of length 4096, A 4096 x 16 and B 16 x 4096.

  The kernel's program flattens x to 16384 rows and tiles the 16384 x 4096 result into 32 x 4 blocks of 512 x 1024; each
  grid point multiplies its 512 rows of x with its 1024 rows of W, adds its 1024 bias entries to every row, and adds 16
  times (rows A) times its 1024 columns of B; the blocks are then split back into 8 x 2048 rows. The reference contracts
  x with W and with A, then with B, over the whole arrays. On the extended reals a change of float format is the identity
  and a product into a zero accumulator is a plain sum of products, so both compute, at every index (s, t, o),

      ((sum_k x[s,t,k] W[o,k]) + b[o]) + 16 * (sum_r (sum_k x[s,t,k] A[k,r]) B[r,o])

  with the same sums in the same grouping (`LoraSpec.layer`): tiling and reshaping only rename indices, and nothing needs
  an entry to be finite. The three frames are the programs' runs with the result dropped; the idealization rewrote no
  operation, so there is nothing for it to preserve beyond the text.
-/
import proofs.«170364_j14491219657132_2_alg».proof.Defs
import proofs.«170364_j14491219657132_2_alg».proof.Proof.Gen.Kernel
import proofs.«170364_j14491219657132_2_alg».proof.Proof.Gen.Kernel.Frame
import proofs.«170364_j14491219657132_2_alg».proof.Proof.Gen.KernelIdeal
import proofs.«170364_j14491219657132_2_alg».proof.Proof.Gen.KernelIdeal.Frame
import proofs.«170364_j14491219657132_2_alg».proof.Proof.Gen.ReferenceIdeal
import proofs.«170364_j14491219657132_2_alg».proof.Proof.Gen.ReferenceIdeal.Run
import proofs.«170364_j14491219657132_2_alg».proof.Proof.Gen.ReferenceIdeal.Read
import proofs.«170364_j14491219657132_2_alg».proof.Proof.Gen.Pre_finite_inputs
import proofs.«170364_j14491219657132_2_alg».proof.Proof.KernelRows
import proofs.«170364_j14491219657132_2_alg».proof.Proof.RefIsLayer
import Idealize.ShloMosaic.Adequacy
import Idealize.ShloMosaic.Init

noncomputable section

namespace Cert.Proof

open Idealize.ShloMosaic Idealize.ShloMosaic.TcCoe Idealize.SL.Sem

/-- The kernel's program as printed runs, and leaves its arguments as they were. -/
theorem frame_kernel : Cert.frame_Kernel := fun m ρ _ => Cert.Kernel.Gen.frame m ρ

/-- So does its reading on the extended reals, -/
theorem frame_kernel_ideal : Cert.frame_KernelIdeal := fun m ρ _ => Cert.KernelIdeal.Gen.frame m ρ

/-- and so does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals both programs, run from memories that agree on the five arguments, end with the layer of
    those arguments in their result: the kernel's program by its blocks (`Rows.run`), the reference operation by
    operation (`Layer.val_eq_layer`). -/
theorem algebraic : Cert.algebraic_KernelIdeal_ReferenceIdeal := by
  intro m ρ m' ρ' _ hagree
  refine ⟨fun c => LoraSpec.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Rows.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.ReferenceIdeal.Layer.val_eq_layer,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
